-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S128x128 : Shape := ⟨2, ![128, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2x16x2048x128 .f32) (main_arg1 : FVec F S2x16x2048x128 .f32) (main_arg2 : FVec F S128x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S2x16x2048x128 : Shape := ⟨4, ![2, 16, 2048, 128]⟩
abbrev S128x128 : Shape := ⟨2, ![128, 128]⟩
abbrev S32x2048x128 : Shape := ⟨3, ![32, 2048, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S32x2048x2048 : Shape := ⟨3, ![32, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1024x128 : Shape := ⟨2, ![1024, 128]⟩
abbrev S2048x128 : Shape := ⟨2, ![2048, 128]⟩
abbrev S128x2048 : Shape := ⟨2, ![128, 2048]⟩
abbrev S1024x2048 : Shape := ⟨2, ![1024, 2048]⟩
abbrev S2x16x2048x2048 : Shape := ⟨4, ![2, 16, 2048, 2048]⟩

abbrev nBuf : Space → Nat
  | .hbm => 9
  | .vmem => 16
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S128x128, .f32⟩
  | .hbm, ⟨3, _⟩ => ⟨S32x2048x128, .f32⟩
  | .hbm, ⟨4, _⟩ => ⟨S32x2048x128, .f32⟩
  | .hbm, ⟨5, _⟩ => ⟨S32x2048x128, .bf16⟩
  | .hbm, ⟨6, _⟩ => ⟨S32x2048x128, .bf16⟩
  | .hbm, ⟨7, _⟩ => ⟨S32x2048x2048, .f32⟩
  | .hbm, ⟨8, _⟩ => ⟨S2x16x2048x2048, .f32⟩
  | .local _ .vmem, ⟨0, _⟩ => ⟨S1x512x128, .f32⟩
  | .local _ .vmem, ⟨1, _⟩ => ⟨S1x512x128, .f32⟩
  | .local _ .vmem, ⟨2, _⟩ => ⟨S128x128, .f32⟩
  | .local _ .vmem, ⟨3, _⟩ => ⟨S1x512x128, .bf16⟩
  | .local _ .vmem, ⟨4, _⟩ => ⟨S1x512x128, .bf16⟩
  | .local _ .vmem, ⟨5, _⟩ => ⟨S1x512x128, .f32⟩
  | .local _ .vmem, ⟨6, _⟩ => ⟨S1x512x128, .f32⟩
  | .local _ .vmem, ⟨7, _⟩ => ⟨S128x128, .f32⟩
  | .local _ .vmem, ⟨8, _⟩ => ⟨S1x512x128, .bf16⟩
  | .local _ .vmem, ⟨9, _⟩ => ⟨S1x512x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x1024x2048, .f32⟩
  | .local _ .vmem, ⟨15, _⟩ => ⟨S1x1024x2048, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![32, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x16x2048x128_S32x2048x128 : S2x16x2048x128.ShapeCasts S32x2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S32x2048x2048_S2x16x2048x2048 : S32x2048x2048.ShapeCasts S2x16x2048x2048
  dot_S512x128_S128x128_S512x128_1_0_0_1_n_n_wf : DotDims.WF S512x128 S128x128 S512x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x2048x128.size a
  hwx0_0 : ∀ i : grid0.Coords, EltTy.bits .f32 = 32 ∨ (Rect.block (s := S32x2048x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S32x2048x128.size a
  hwx0_2 : ∀ i : grid0.Coords, EltTy.bits .bf16 = 32 ∨ (Rect.block (s := S32x2048x128) S1x512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S32x2048x128.size a
  hwx1_0 : ∀ i : grid1.Coords, EltTy.bits .f32 = 32 ∨ (Rect.block (s := S32x2048x128) S1x512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S32x2048x128.size a
  hwx1_2 : ∀ i : grid1.Coords, EltTy.bits .bf16 = 32 ∨ (Rect.block (s := S32x2048x128) S1x512x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S32x2048x128.size a
  hwx2_0 : ∀ i : grid2.Coords, EltTy.bits .bf16 = 32 ∨ (Rect.block (s := S32x2048x128) S1x1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S32x2048x128.size a
  hwx2_1 : ∀ i : grid2.Coords, EltTy.bits .bf16 = 32 ∨ (Rect.block (s := S32x2048x128) S1x2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x2048.size a ≤ S32x2048x2048.size a
  hwx2_2 : ∀ i : grid2.Coords, EltTy.bits .f32 = 32 ∨ (Rect.block (s := S32x2048x2048) S1x1024x2048.size (cc2_transform_2 i) (hinb2_2 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v1) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x16x2048x128 : Shape := ⟨4, ![2, 16, 2048, 128]⟩
abbrev S128x128 : Shape := ⟨2, ![128, 128]⟩
abbrev S_ : Shape := ⟨0, ![]⟩
abbrev S2x16x2048 : Shape := ⟨3, ![2, 16, 2048]⟩
abbrev S2x16x2048x2048 : Shape := ⟨4, ![2, 16, 2048, 2048]⟩
abbrev S2x16x1x2048 : Shape := ⟨4, ![2, 16, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S128x128, .f32⟩
  | .hbm, ⟨3, _⟩ => ⟨S2x16x2048x128, .f32⟩
  | .hbm, ⟨4, _⟩ => ⟨S_, .f32⟩
  | .hbm, ⟨5, _⟩ => ⟨S2x16x2048, .f32⟩
  | .hbm, ⟨6, _⟩ => ⟨S2x16x2048, .f32⟩
  | .hbm, ⟨7, _⟩ => ⟨S2x16x2048x128, .f32⟩
  | .hbm, ⟨8, _⟩ => ⟨S_, .f32⟩
  | .hbm, ⟨9, _⟩ => ⟨S2x16x2048x128, .f32⟩
  | .hbm, ⟨10, _⟩ => ⟨S2x16x2048x128, .i1⟩
  | .hbm, ⟨11, _⟩ => ⟨S_, .f32⟩
  | .hbm, ⟨12, _⟩ => ⟨S_, .f32⟩
  | .hbm, ⟨13, _⟩ => ⟨S2x16x2048x128, .f32⟩
  | .hbm, ⟨14, _⟩ => ⟨S2x16x2048x128, .f32⟩
  | .hbm, ⟨15, _⟩ => ⟨S2x16x2048x128, .f32⟩
  | .hbm, ⟨16, _⟩ => ⟨S2x16x2048x128, .f32⟩
  | .hbm, ⟨17, _⟩ => ⟨S2x16x2048x128, .f32⟩
  | .hbm, ⟨18, _⟩ => ⟨S2x16x2048x2048, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S2x16x1x2048, .f32⟩
  | .hbm, ⟨23, _⟩ => ⟨S2x16x2048x2048, .f32⟩
  | .hbm, ⟨24, _⟩ => ⟨S2x16x2048x2048, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  reducesTo_S2x16x2048x128_S2x16x2048_d3 : S2x16x2048x128.ReducesTo [3] S2x16x2048
  h_S_ : 0 < S_.numel
  bcast_S_S2x16x2048x128 : S_.BroadcastsInDim S2x16x2048x128 (![] : Fin 0 → Fin S2x16x2048x128.rank)
  bcast_S_S2x16x2048x2048 : S_.BroadcastsInDim S2x16x2048x2048 (![] : Fin 0 → Fin S2x16x2048x2048.rank)
  bcast_S2x16x2048_S2x16x1x2048_0_1_3 : S2x16x2048.BroadcastsInDim S2x16x1x2048 (![0, 1, 3] : Fin 3 → Fin S2x16x1x2048.rank)
  bcast_S2x16x1x2048_S2x16x2048x2048_0_1_2_3 : S2x16x1x2048.BroadcastsInDim S2x16x2048x2048 (![0, 1, 2, 3] : Fin 4 → Fin S2x16x2048x2048.rank)
  dot_S2x16x2048x128_S128x128_S2x16x2048x128_3_1_012_0_n_n_wf : DotDims.WF S2x16x2048x128 S128x128 S2x16x2048x128 [3] [1] [0, 1, 2] [0] [] []
  dot_S2x16x2048x128_S2x16x2048x128_S2x16x2048x2048_3_3_2_2_01_01_wf : DotDims.WF S2x16x2048x128 S2x16x2048x128 S2x16x2048x2048 [3] [3] [2] [2] [0, 1] [0, 1]

variable [Facts₀]

def dot_S2x16x2048x128_S128x128_S2x16x2048x128_3_1_012_0_n_n : DotDims S2x16x2048x128 S128x128 S2x16x2048x128 where
  lhsContracting := [3]
  rhsContracting := [1]
  lhsNonContracting := [0, 1, 2]
  rhsNonContracting := [0]
  lhsBatch := []
  rhsBatch := []
  wf := dot_S2x16x2048x128_S128x128_S2x16x2048x128_3_1_012_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf

class Facts : Prop extends Facts₀ where

variable [Facts]
-- ==== Proof.KRun.lean ====
/-
  The idealized kernel program's run, with its result named.

  The program is two reshapes of the arguments, three launches, and a reshape of the last launch's output. Its run
  is the chain of those five segments from the launch memory; every buffer the chain holds ends at the contents the
  last segment leaves. Read at the result buffer this says: the program terminates without a fault, its result is
  what the final reshape leaves of the third launch's output array, and its three arguments are as launched.
-/
import proofs.«156569_j68032281969137_1_alg».proof.Proof.Gen.KernelIdeal.Frame

set_option maxRecDepth 16384

noncomputable section

namespace Cert.SignProj.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting; the result buffer ends at
    what the last host segment leaves there (`W5`), and the arguments end as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.SignProj.Run

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«156569_j68032281969137_1_alg».proof.Proof.LibContract
import proofs.«156569_j68032281969137_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.Spec.lean ====
/-
  The sign-quantized projection estimate of inner products, as a function of its three arrays.

  Each key row k (b, h, j, ·) is projected onto the 128 rows of the matrix S; only the SIGN of each projection is
  kept (zero counts as positive), beside the Euclidean length of the row. Each query row q (b, h, i, ·) is projected
  onto the same rows and keeps its projections. The estimate of the inner product of query row i with key row j is
  the sum, over the rows m of S, of the query's projection times the key's sign, scaled by a constant and by the
  key's length.

  One program folds the length and the constant into the signs before the sum over m (`kernelAt`); the other takes
  the sum first and scales afterwards (`refAt`). On the extended reals the two agree wherever every entry of the three
  arrays is a real number (the distributive law is the only step, and it is what fails at the infinities).
-/
import Idealize.ShloMosaic.PureOps.Ideal
import Idealize.ShloMosaic.Lib.ValueIdx

noncomputable section

open scoped BigOperators

namespace Cert.SignProj

open Idealize.ShloMosaic Idealize.ShloMosaic.ValueIdx

/-- The shape of the query and key arrays: 2 × 16 heads, 2048 rows of 128 entries. -/
abbrev Rows : Shape := ⟨4, ![2, 16, 2048, 128]⟩
/-- The shape of the projection matrix: 128 rows of 128 entries. -/
abbrev Mat : Shape := ⟨2, ![128, 128]⟩
/-- The shape of the result: for each head, every (query row, key row) pair. -/
abbrev Pairs : Shape := ⟨4, ![2, 16, 2048, 2048]⟩

/-- Row (b, h, i) of `x` against row m of the matrix: the sum over d of x (b, h, i, d) · S (m, d). -/
def proj (x : Rows.Idx → EReal) (S : Mat.Idx → EReal) (b : Fin 2) (h : Fin 16) (i : Fin 2048) (m : Fin 128) : EReal :=
  ∑ d : Fin 128, x (ix4 b h i d) * S (ix2 m d)

/-- The kept sign: one where the projection is at least zero, minus one below (the two f32 words are 1.0 and -1.0,
    the comparison is against the f32 zero word). -/
def sgn (p : EReal) : EReal :=
  Scalar.select (Ideal.cmp .oge p (Ideal.ofBits .f32 0x00000000#32)) (Ideal.ofBits .f32 0x3F800000#32)
    (Ideal.ofBits .f32 0xBF800000#32)

/-- The Euclidean length of row (b, h, j) of `k`: the square root of the sum of its squared entries. -/
def nrm (k : Rows.Idx → EReal) (b : Fin 2) (h : Fin 16) (j : Fin 2048) : EReal :=
  Ideal.sqrt (∑ d : Fin 128, k (ix4 b h j d) * k (ix4 b h j d))

/-- The scaling constant, the same f32 word in both programs (it is never evaluated). -/
def scale : EReal := Ideal.ofBits .f32 0x3C206C99#32

/-- Length and constant folded into the signs, then summed against the query's projections. -/
def kernelAt (q k : Rows.Idx → EReal) (S : Mat.Idx → EReal) (b : Fin 2) (h : Fin 16) (i j : Fin 2048) : EReal :=
  ∑ m : Fin 128, proj q S b h i m * (sgn (proj k S b h j m) * nrm k b h j * scale)

/-- Summed first, then scaled by the constant and by the key's length. -/
def refAt (q k : Rows.Idx → EReal) (S : Mat.Idx → EReal) (b : Fin 2) (h : Fin 16) (i j : Fin 2048) : EReal :=
  (∑ m : Fin 128, proj q S b h i m * sgn (proj k S b h j m)) * scale * nrm k b h j

end Cert.SignProj

end
-- ==== Proof.KBody.lean ====
/-
  The three vector programs' stored values, read at an entry, on the extended reals.

  Each program loads a [1, rows, 128] block and a second operand, drops the leading unit axis, multiplies
  matrices into a zero accumulator, and stores the result under a fresh leading unit axis. Changes of
  float format are the identity on the extended reals.

    the query program   block x [1,512,128], matrix w [128,128]:
        entry (0, r, m) is  ∑ d, x (0, r, d) · w (m, d)            (the product with w transposed);
    the key program     the same product p, then its sign (one where p ≥ 0, else minus one) times the
        length of row r, √(∑ d, x (0, r, d)²), times the scaling constant;
    the pairing program blocks a [1,1024,128] and b [1,2048,128]:
        entry (0, r, c) is  ∑ m, a (0, r, m) · b (0, c, m)         (the product with b transposed).
-/
import proofs.«156569_j68032281969137_1_alg».proof.Proof.Gen.KernelIdeal.Skeleton
import proofs.«156569_j68032281969137_1_alg».proof.Proof.LibDenseVec
import proofs.«156569_j68032281969137_1_alg».proof.Proof.LibColumnForms
import proofs.«156569_j68032281969137_1_alg».proof.Proof.Spec
import Idealize.ShloMosaic.Lib.ValueLayout

noncomputable section

open scoped BigOperators

namespace Cert.SignProj

open Idealize.ShloMosaic Idealize.ShloMosaic.ValueIdx Cert.KernelIdeal Cert.KernelIdeal.Gen

/-- The [512,128] · [128,128] dimension record contracts the left operand's columns with the right operand's rows. -/
theorem plain_512 : DenseVec.Plain dot_S512x128_S128x128_S512x128_1_0_0_1_n_n where
  rank := rfl
  size := fun _ => rfl
  lhs := rfl
  rhs := rfl
  row := fun _ _ => rfl
  col := fun _ _ => rfl

/-- The [1024,128] · [128,2048] dimension record likewise. -/
theorem plain_1024 : DenseVec.Plain dot_S1024x128_S128x2048_S1024x2048_1_0_0_1_n_n where
  rank := rfl
  size := fun _ => rfl
  lhs := rfl
  rhs := rfl
  row := fun _ _ => rfl
  col := fun _ _ => rfl

/-- A [1,512,128] block against the transposed [128,128] matrix, into the zero accumulator, at (r, m):
    the sum over d of x (0, r, d) · w (m, d). -/
theorem rowsTimesTransposed (x : FVec Ideal S1x512x128 .f32) (w : FVec Ideal S128x128 .f32) (r : Fin 512) (m : Fin 128) :
    matmul dot_S512x128_S128x128_S512x128_1_0_0_1_n_n none (shapeCast S512x128 x shapeCasts_S1x512x128_S512x128)
        (transpose S128x128 [1, 0] w transposes_S128x128_p1_0_S128x128) (constant (F := Ideal) S512x128 .f32 0x00000000#32) (ix2 r m)
      = ∑ d : Fin 128, x (ix3 (0 : Fin 1) r d) * w (ix2 m d) := by
  refine (DenseVec.matmul_zero_ix2 plain_512 none _ _ r m).trans ?_
  refine Finset.sum_congr rfl fun d _ => ?_
  rw [shapeCast_1ab_ab_apply, transpose_ix2_apply]

/-- The query program's stored value at (0, r, m). -/
theorem queryBody_apply (x : FVec Ideal S1x512x128 .f32) (w : FVec Ideal S128x128 .f32) (r : Fin 512) (m : Fin 128) :
    k1_pay1 (F := Ideal) x w (ix3 (0 : Fin 1) r m) = ∑ d : Fin 128, x (ix3 (0 : Fin 1) r d) * w (ix2 m d) := by
  unfold k1_pay1
  refine (shapeCast_ab_1ab_apply _ _ (0 : Fin 1) r m).trans ?_
  exact rowsTimesTransposed x w r m

/-- The key program's stored value at (0, r, m): sign of the projection, times the row's length, times the constant. -/
theorem keyBody_apply (x : FVec Ideal S1x512x128 .f32) (w : FVec Ideal S128x128 .f32) (r : Fin 512) (m : Fin 128) :
    k0_pay1 (F := Ideal) x w (ix3 (0 : Fin 1) r m)
      = sgn (∑ d : Fin 128, x (ix3 (0 : Fin 1) r d) * w (ix2 m d))
          * Ideal.sqrt (∑ d : Fin 128, x (ix3 (0 : Fin 1) r d) * x (ix3 (0 : Fin 1) r d)) * scale := by
  unfold k0_pay1
  refine (shapeCast_ab_1ab_apply _ _ (0 : Fin 1) r m).trans ?_
  refine congrArg₂ (fun a b : EReal => a * b) (congrArg₂ (fun a b : EReal => a * b) ?_ ?_) rfl
  · exact congrArg sgn (rowsTimesTransposed x w r m)
  · refine (ColumnForms.broadcastTo_a1_ab_apply _ _ r m).trans ?_
    refine congrArg Ideal.sqrt ?_
    refine (ColumnForms.shapeCast_a_a1_apply _ _ r).trans ?_
    refine (ColumnForms.laneSum_zero_f32_apply _ _ _ _ r).trans ?_
    refine Finset.sum_congr rfl fun d _ => ?_
    refine congrArg₂ (fun a b : EReal => a * b) ?_ ?_ <;> exact shapeCast_1ab_ab_apply _ _ r d

/-- The pairing program's stored value at (0, r, c). -/
theorem pairBody_apply (a : FVec Ideal S1x1024x128 .bf16) (b : FVec Ideal S1x2048x128 .bf16) (r : Fin 1024) (c : Fin 2048) :
    k2_pay1 (F := Ideal) a b (ix3 (0 : Fin 1) r c) = ∑ m : Fin 128, a (ix3 (0 : Fin 1) r m) * b (ix3 (0 : Fin 1) c m) := by
  unfold k2_pay1
  refine (shapeCast_ab_1ab_apply _ _ (0 : Fin 1) r c).trans ?_
  refine (DenseVec.matmul_zero_ix2 plain_1024 none _ _ r c).trans ?_
  refine Finset.sum_congr rfl fun m _ => ?_
  rw [shapeCast_1ab_ab_apply, transpose_ix2_apply, shapeCast_1ab_ab_apply]

end Cert.SignProj

end
-- ==== Proof.KRegion0.lean ====
/-
  The key launch: what its output array holds when it returns.

  The launch walks a 32 × 4 grid. At point (g, s) it reads rows 512·s … 512·s + 511 of head g of the key array
  (a [1, 512, 128] block) and the whole projection matrix, and writes back the same rows of the output array.
  Entry (g, r, m) of the output therefore depends on row (g, r) of the keys and row m of the matrix only: it is the
  sign of their inner product, times the length of the key row, times the scaling constant. The blocks tile the
  output array (row r of head g lies in the block of point (g, r / 512)), so the whole array is that function.
-/
import proofs.«156569_j68032281969137_1_alg».proof.Proof.Gen.KernelIdeal.Frame
import proofs.«156569_j68032281969137_1_alg».proof.Proof.KBody
import Idealize.ShloMosaic.Lib.Pipeline.Value

set_option maxRecDepth 16384

noncomputable section

open scoped BigOperators

namespace Cert.SignProj.Keys

open Cert.SignProj
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- Entry (g, r, m) of the quantized keys: the sign of key row (g, r) against matrix row m, times the row's length,
    times the constant. -/
def keyRowAt (k2 : S32x2048x128.Idx → EReal) (S : S128x128.Idx → EReal) (g : Fin 32) (r : Fin 2048) (mm : Fin 128) : EReal :=
  sgn (∑ d : Fin 128, k2 (ix3 g r d) * S (ix2 mm d)) * Ideal.sqrt (∑ d : Fin 128, k2 (ix3 g r d) * k2 (ix3 g r d)) * scale

/-- The quantized keys as one array. -/
def keyRows (k2 : S32x2048x128.Idx → EReal) (S : S128x128.Idx → EReal) : S32x2048x128.Idx → EReal :=
  fun o => keyRowAt k2 S (o 0) (o 1) (o 2)

/-- The stored block at a local index y is the array function at any index i that names the same key row and the same
    matrix row: block row (y 1) holds key row (i 0, i 1), the matrix block is the matrix, and y's column is i's. -/
theorem keyBlock_eq (x0 : FVec Ideal S1x512x128 .f32) (x1 : FVec Ideal S128x128 .f32)
    (k2 : S32x2048x128.Idx → EReal) (S : S128x128.Idx → EReal) (y : S1x512x128.Idx) (i : S32x2048x128.Idx)
    (hrow : ∀ (r : Fin 512) (d : Fin 128) (g : Fin 32) (rr : Fin 2048), r.val = (y 1).val → g.val = (i 0).val →
      rr.val = (i 1).val → x0 (ix3 (0 : Fin 1) r d) = k2 (ix3 g rr d))
    (hmat : ∀ mm d : Fin 128, x1 (ix2 mm d) = S (ix2 mm d))
    (hcol : (y 2).val = (i 2).val) :
    k0_pay1 (F := Ideal) x0 x1 y = keyRows k2 S i := by
  obtain ⟨u, r, mm, rfl⟩ : ∃ (u : Fin 1) (r : Fin 512) (mm : Fin 128), y = ix3 u r mm := ⟨y 0, y 1, y 2, eq_ix3 y⟩
  obtain ⟨g, rr, m2, rfl⟩ : ∃ (g : Fin 32) (rr : Fin 2048) (m2 : Fin 128), i = ix3 g rr m2 := ⟨i 0, i 1, i 2, eq_ix3 i⟩
  obtain rfl : u = 0 := Subsingleton.elim _ _
  obtain rfl : m2 = mm := Fin.ext hcol.symm
  rw [keyBody_apply]
  show _ = keyRowAt k2 S g rr m2
  unfold keyRowAt
  simp only [hrow r _ g rr rfl rfl rfl, hmat]

/-- The printed index maps over the grid: the key block and the output block move together on the head and row-block
    axes, neither moves on the last axis, and the matrix block never moves. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0
    ∧ win0_2.index t (0 : Fin 3) ≤ 31 ∧ win0_2.index t (1 : Fin 3) ≤ 3 :=
  (by decide +kernel : ∀ t : Fin grid0.N, _)

/-- Every (head, row-block) pair is some point's output block. -/
theorem idx_onto : ∀ (q0 : Fin 32) (q1 : Fin 4), ∃ t : Fin cfg0.N, win0_2.index t = ![q0.val, q1.val, 0] :=
  (by decide +kernel : ∀ (q0 : Fin 32) (q1 : Fin 4), ∃ t : Fin grid0.N, win0_2.index t = ![q0.val, q1.val, 0])

/-- What point t writes back is block t of the quantized keys of the arrays as the launch finds them. -/
theorem flushed_eq (c : Dev nD) (t : Fin cfg0.N) :
    (dat0 V c).flushed 2 t = ((cfg0.win 2).blk t).view.read (Elt Ideal) (keyRows (V c main_v1) (V c main_arg2)) := by
  show (cfg0.win 2).cut (grid0.coords t) ((dat0 V c).after 2 t) = _
  rw [after0_2]
  unfold out0_2
  rw [View.canon_unit_zero zeros3]
  simp only [View.ld_unit_zero (S := S1x512x128) zeros3, View.ld_unit_zero (S := S128x128) zeros2]
  obtain ⟨e0, e1, e2, e3, e4, e5, e6, e7⟩ := idx_facts t
  funext j
  show k0_pay1 (F := Ideal) (iblk0 V c 0 t) (iblk0 V c 1 t) j = keyRows (V c main_v1) (V c main_arg2) (((cfg0.win 2).blk t).view.emb j)
  have hi0 : ((((cfg0.win 2).blk t).view.emb j) 0).val = win0_2.index t (0 : Fin 3) * 1 + 1 * (j 0).val := rfl
  have hi1 : ((((cfg0.win 2).blk t).view.emb j) 1).val = win0_2.index t (1 : Fin 3) * 512 + 1 * (j 1).val := rfl
  have hi2 : ((((cfg0.win 2).blk t).view.emb j) 2).val = win0_2.index t (2 : Fin 3) * 128 + 1 * (j 2).val := rfl
  have hj0 : (j 0).val < 1 := (j 0).isLt
  refine keyBlock_eq _ _ _ _ j _ (fun r d g rr hr hg hrr => ?_) (fun mm d => ?_) ?_
  · show V c main_v1 (((cfg0.win 0).blk t).view.emb (ix3 (0 : Fin 1) r d)) = V c main_v1 (ix3 g rr d)
    refine congrArg (V c main_v1) (funext fun a => Fin.ext ?_)
    match a with
    | ⟨0, _⟩ => show win0_0.index t (0 : Fin 3) * 1 + 1 * 0 = g.val; omega
    | ⟨1, _⟩ => show win0_0.index t (1 : Fin 3) * 512 + 1 * r.val = rr.val; omega
    | ⟨2, _⟩ => show win0_0.index t (2 : Fin 3) * 128 + 1 * d.val = d.val; omega
  · show V c main_arg2 (((cfg0.win 1).blk t).view.emb (ix2 mm d)) = V c main_arg2 (ix2 mm d)
    refine congrArg (V c main_arg2) (funext fun a => Fin.ext ?_)
    match a with
    | ⟨0, _⟩ => show win0_1.index t (0 : Fin 2) * 128 + 1 * mm.val = mm.val; omega
    | ⟨1, _⟩ => show win0_1.index t (1 : Fin 2) * 128 + 1 * d.val = d.val; omega
  · omega

/-- An index of the output array is in point t's block iff each coordinate is in the block's range on its axis. -/
theorem mem_blk (t : Fin cfg0.N) (i : S32x2048x128.Idx) :
    i ∈ ((cfg0.win 2).blk t).view.set ↔ ∀ a : Fin 3, win0_2.index t a * S1x512x128.size a ≤ (i a).val ∧ (i a).val < win0_2.index t a * S1x512x128.size a + S1x512x128.size a := by
  show i ∈ ((View.whole main_v2).slice (win0_2.rect t)).set ↔ _
  rw [View.set_slice_whole, Rect.mem_set_unit]
  exact Iff.rfl

/-- Every index of the output array is in some writing point's block: row r of head g in the block of (g, r / 512). -/
theorem cover (i : S32x2048x128.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- The output array after the launch: the quantized keys of the arrays as the launch finds them. -/
theorem final (c : Dev nD) : (dat0 V c).arrAt 2 cfg0.N = keyRows (V c main_v1) (V c main_arg2) :=
  (dat0 V c).arrAt_eq_of_cover 2 _ (fun t _ => flushed_eq V c t) cover

end Cert.SignProj.Keys

end
-- ==== Proof.KRegion1.lean ====
/-
  The query launch: what its output array holds when it returns.

  The launch walks a 32 × 4 grid. At point (g, s) it reads rows 512·s … 512·s + 511 of head g of the query array
  (a [1, 512, 128] block) and the whole projection matrix, and writes back the same rows of the output array.
  Entry (g, r, m) of the output is the inner product of query row (g, r) with matrix row m. The blocks tile the
  output array (row r of head g lies in the block of point (g, r / 512)), so the whole array is that function.
-/
import proofs.«156569_j68032281969137_1_alg».proof.Proof.Gen.KernelIdeal.Frame
import proofs.«156569_j68032281969137_1_alg».proof.Proof.KBody
import Idealize.ShloMosaic.Lib.Pipeline.Value

set_option maxRecDepth 16384

noncomputable section

open scoped BigOperators

namespace Cert.SignProj.Queries

open Cert.SignProj
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- Entry (g, r, m) of the projected queries: query row (g, r) against matrix row m. -/
def projRowAt (k2 : S32x2048x128.Idx → EReal) (S : S128x128.Idx → EReal) (g : Fin 32) (r : Fin 2048) (mm : Fin 128) : EReal :=
  ∑ d : Fin 128, k2 (ix3 g r d) * S (ix2 mm d)

/-- The projected queries as one array. -/
def projRows (k2 : S32x2048x128.Idx → EReal) (S : S128x128.Idx → EReal) : S32x2048x128.Idx → EReal :=
  fun o => projRowAt k2 S (o 0) (o 1) (o 2)

/-- The stored block at a local index y is the array function at any index i that names the same query row and the same
    matrix row. -/
theorem projBlock_eq (x0 : FVec Ideal S1x512x128 .f32) (x1 : FVec Ideal S128x128 .f32)
    (k2 : S32x2048x128.Idx → EReal) (S : S128x128.Idx → EReal) (y : S1x512x128.Idx) (i : S32x2048x128.Idx)
    (hrow : ∀ (r : Fin 512) (d : Fin 128) (g : Fin 32) (rr : Fin 2048), r.val = (y 1).val → g.val = (i 0).val →
      rr.val = (i 1).val → x0 (ix3 (0 : Fin 1) r d) = k2 (ix3 g rr d))
    (hmat : ∀ mm d : Fin 128, x1 (ix2 mm d) = S (ix2 mm d))
    (hcol : (y 2).val = (i 2).val) :
    k1_pay1 (F := Ideal) x0 x1 y = projRows k2 S i := by
  obtain ⟨u, r, mm, rfl⟩ : ∃ (u : Fin 1) (r : Fin 512) (mm : Fin 128), y = ix3 u r mm := ⟨y 0, y 1, y 2, eq_ix3 y⟩
  obtain ⟨g, rr, m2, rfl⟩ : ∃ (g : Fin 32) (rr : Fin 2048) (m2 : Fin 128), i = ix3 g rr m2 := ⟨i 0, i 1, i 2, eq_ix3 i⟩
  obtain rfl : u = 0 := Subsingleton.elim _ _
  obtain rfl : m2 = mm := Fin.ext hcol.symm
  rw [queryBody_apply]
  show _ = projRowAt k2 S g rr m2
  unfold projRowAt
  simp only [hrow r _ g rr rfl rfl rfl, hmat]

/-- The printed index maps over the grid: the query block and the output block move together on the head and row-block
    axes, neither moves on the last axis, and the matrix block never moves. -/
theorem idx_facts : ∀ t : Fin cfg1.N,
    win1_0.index t (0 : Fin 3) = win1_2.index t (0 : Fin 3) ∧ win1_0.index t (1 : Fin 3) = win1_2.index t (1 : Fin 3)
    ∧ win1_0.index t (2 : Fin 3) = 0 ∧ win1_2.index t (2 : Fin 3) = 0
    ∧ win1_1.index t (0 : Fin 2) = 0 ∧ win1_1.index t (1 : Fin 2) = 0
    ∧ win1_2.index t (0 : Fin 3) ≤ 31 ∧ win1_2.index t (1 : Fin 3) ≤ 3 :=
  (by decide +kernel : ∀ t : Fin grid1.N, _)

/-- Every (head, row-block) pair is some point's output block. -/
theorem idx_onto : ∀ (q0 : Fin 32) (q1 : Fin 4), ∃ t : Fin cfg1.N, win1_2.index t = ![q0.val, q1.val, 0] :=
  (by decide +kernel : ∀ (q0 : Fin 32) (q1 : Fin 4), ∃ t : Fin grid1.N, win1_2.index t = ![q0.val, q1.val, 0])

/-- What point t writes back is block t of the projected queries of the arrays as the launch finds them. -/
theorem flushed_eq (c : Dev nD) (t : Fin cfg1.N) :
    (dat1 V c).flushed 2 t = ((cfg1.win 2).blk t).view.read (Elt Ideal) (projRows (V c main_v0) (V c main_arg2)) := by
  show (cfg1.win 2).cut (grid1.coords t) ((dat1 V c).after 2 t) = _
  rw [after1_2]
  unfold out1_2
  rw [View.canon_unit_zero zeros3]
  simp only [View.ld_unit_zero (S := S1x512x128) zeros3, View.ld_unit_zero (S := S128x128) zeros2]
  obtain ⟨e0, e1, e2, e3, e4, e5, e6, e7⟩ := idx_facts t
  funext j
  show k1_pay1 (F := Ideal) (iblk1 V c 0 t) (iblk1 V c 1 t) j = projRows (V c main_v0) (V c main_arg2) (((cfg1.win 2).blk t).view.emb j)
  have hi0 : ((((cfg1.win 2).blk t).view.emb j) 0).val = win1_2.index t (0 : Fin 3) * 1 + 1 * (j 0).val := rfl
  have hi1 : ((((cfg1.win 2).blk t).view.emb j) 1).val = win1_2.index t (1 : Fin 3) * 512 + 1 * (j 1).val := rfl
  have hi2 : ((((cfg1.win 2).blk t).view.emb j) 2).val = win1_2.index t (2 : Fin 3) * 128 + 1 * (j 2).val := rfl
  have hj0 : (j 0).val < 1 := (j 0).isLt
  refine projBlock_eq _ _ _ _ j _ (fun r d g rr hr hg hrr => ?_) (fun mm d => ?_) ?_
  · show V c main_v0 (((cfg1.win 0).blk t).view.emb (ix3 (0 : Fin 1) r d)) = V c main_v0 (ix3 g rr d)
    refine congrArg (V c main_v0) (funext fun a => Fin.ext ?_)
    match a with
    | ⟨0, _⟩ => show win1_0.index t (0 : Fin 3) * 1 + 1 * 0 = g.val; omega
    | ⟨1, _⟩ => show win1_0.index t (1 : Fin 3) * 512 + 1 * r.val = rr.val; omega
    | ⟨2, _⟩ => show win1_0.index t (2 : Fin 3) * 128 + 1 * d.val = d.val; omega
  · show V c main_arg2 (((cfg1.win 1).blk t).view.emb (ix2 mm d)) = V c main_arg2 (ix2 mm d)
    refine congrArg (V c main_arg2) (funext fun a => Fin.ext ?_)
    match a with
    | ⟨0, _⟩ => show win1_1.index t (0 : Fin 2) * 128 + 1 * mm.val = mm.val; omega
    | ⟨1, _⟩ => show win1_1.index t (1 : Fin 2) * 128 + 1 * d.val = d.val; omega
  · omega

/-- An index of the output array is in point t's block iff each coordinate is in the block's range on its axis. -/
theorem mem_blk (t : Fin cfg1.N) (i : S32x2048x128.Idx) :
    i ∈ ((cfg1.win 2).blk t).view.set ↔ ∀ a : Fin 3, win1_2.index t a * S1x512x128.size a ≤ (i a).val ∧ (i a).val < win1_2.index t a * S1x512x128.size a + S1x512x128.size a := by
  show i ∈ ((View.whole main_v3).slice (win1_2.rect t)).set ↔ _
  rw [View.set_slice_whole, Rect.mem_set_unit]
  exact Iff.rfl

/-- Every index of the output array is in some writing point's block: row r of head g in the block of (g, r / 512). -/
theorem cover (i : S32x2048x128.Idx) :
    ∃ t : Fin cfg1.N, (cfg1.win 2).flush t = true ∧ i ∈ ((cfg1.win 2).blk t).view.set := by
  have hi0 : (i 0).val < 32 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 128 ≤ (i 2).val ∧ (i 2).val < win1_2.index t (2 : Fin 3) * 128 + 128; omega

/-- The output array after the launch: the projected queries of the arrays as the launch finds them. -/
theorem final (c : Dev nD) : (dat1 V c).arrAt 2 cfg1.N = projRows (V c main_v0) (V c main_arg2) :=
  (dat1 V c).arrAt_eq_of_cover 2 _ (fun t _ => flushed_eq V c t) cover

end Cert.SignProj.Queries

end
-- ==== Proof.KRegion2.lean ====
/-
  The pairing launch: what its output array holds when it returns.

  The launch walks a 32 × 2 grid. At point (g, s) it reads rows 1024·s … 1024·s + 1023 of head g of the projected
  queries (a [1, 1024, 128] block) and ALL 2048 rows of head g of the quantized keys (a [1, 2048, 128] block), and
  writes back rows 1024·s … of head g of the output, all 2048 columns. Entry (g, r, c) of the output is the inner
  product of projected-query row (g, r) with quantized-key row (g, c). The blocks tile the output array (row r of
  head g lies in the block of point (g, r / 1024)), so the whole array is that function.
-/
import proofs.«156569_j68032281969137_1_alg».proof.Proof.Gen.KernelIdeal.Frame
import proofs.«156569_j68032281969137_1_alg».proof.Proof.KBody
import Idealize.ShloMosaic.Lib.Pipeline.Value

set_option maxRecDepth 16384

noncomputable section

open scoped BigOperators

namespace Cert.SignProj.Pairs

open Cert.SignProj
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl

/-- Entry (g, r, c) of the pairing: projected-query row (g, r) against quantized-key row (g, c). -/
def pairAt (sq wk : S32x2048x128.Idx → EReal) (g : Fin 32) (r cc : Fin 2048) : EReal :=
  ∑ mm : Fin 128, sq (ix3 g r mm) * wk (ix3 g cc mm)

/-- The pairing as one array. -/
def pairRows (sq wk : S32x2048x128.Idx → EReal) : S32x2048x2048.Idx → EReal :=
  fun o => pairAt sq wk (o 0) (o 1) (o 2)

/-- The stored block at a local index y is the array function at any index i that names the same two rows: block
    row (y 1) of the first operand holds projected-query row (i 0, i 1), block row (y 2) of the second holds
    quantized-key row (i 0, i 2). -/
theorem pairBlock_eq (x0 : FVec Ideal S1x1024x128 .bf16) (x1 : FVec Ideal S1x2048x128 .bf16)
    (sq wk : S32x2048x128.Idx → EReal) (y : S1x1024x2048.Idx) (i : S32x2048x2048.Idx)
    (hq : ∀ (r : Fin 1024) (mm : Fin 128) (g : Fin 32) (rr : Fin 2048), r.val = (y 1).val → g.val = (i 0).val →
      rr.val = (i 1).val → x0 (ix3 (0 : Fin 1) r mm) = sq (ix3 g rr mm))
    (hk : ∀ (cl : Fin 2048) (mm : Fin 128) (g : Fin 32) (cc : Fin 2048), cl.val = (y 2).val → g.val = (i 0).val →
      cc.val = (i 2).val → x1 (ix3 (0 : Fin 1) cl mm) = wk (ix3 g cc mm)) :
    k2_pay1 (F := Ideal) x0 x1 y = pairRows sq wk i := by
  obtain ⟨u, r, cl, rfl⟩ : ∃ (u : Fin 1) (r : Fin 1024) (cl : Fin 2048), y = ix3 u r cl := ⟨y 0, y 1, y 2, eq_ix3 y⟩
  obtain ⟨g, rr, cc, rfl⟩ : ∃ (g : Fin 32) (rr : Fin 2048) (cc : Fin 2048), i = ix3 g rr cc := ⟨i 0, i 1, i 2, eq_ix3 i⟩
  obtain rfl : u = 0 := Subsingleton.elim _ _
  rw [pairBody_apply]
  show _ = pairAt sq wk g rr cc
  unfold pairAt
  simp only [hq r _ g rr rfl rfl rfl, hk cl _ g cc rfl rfl rfl]

/-- The printed index maps over the grid: the query block and the output block move together on the head and row-block
    axes; the key block follows the head and stays at the top on the row axis; nothing moves on the last axis. -/
theorem idx_facts : ∀ t : Fin cfg2.N,
    win2_0.index t (0 : Fin 3) = win2_2.index t (0 : Fin 3) ∧ win2_0.index t (1 : Fin 3) = win2_2.index t (1 : Fin 3)
    ∧ win2_0.index t (2 : Fin 3) = 0 ∧ win2_2.index t (2 : Fin 3) = 0
    ∧ win2_1.index t (0 : Fin 3) = win2_2.index t (0 : Fin 3) ∧ win2_1.index t (1 : Fin 3) = 0 ∧ win2_1.index t (2 : Fin 3) = 0
    ∧ win2_2.index t (0 : Fin 3) ≤ 31 ∧ win2_2.index t (1 : Fin 3) ≤ 1 :=
  (by decide +kernel : ∀ t : Fin grid2.N, _)

/-- Every (head, row-block) pair is some point's output block. -/
theorem idx_onto : ∀ (q0 : Fin 32) (q1 : Fin 2), ∃ t : Fin cfg2.N, win2_2.index t = ![q0.val, q1.val, 0] :=
  (by decide +kernel : ∀ (q0 : Fin 32) (q1 : Fin 2), ∃ t : Fin grid2.N, win2_2.index t = ![q0.val, q1.val, 0])

/-- What point t writes back is block t of the pairing of the two arrays as the launch finds them. -/
theorem flushed_eq (c : Dev nD) (t : Fin cfg2.N) :
    (dat2 V c).flushed 2 t = ((cfg2.win 2).blk t).view.read (Elt Ideal) (pairRows (V c main_v3) (V c main_v2)) := by
  show (cfg2.win 2).cut (grid2.coords t) ((dat2 V c).after 2 t) = _
  rw [after2_2]
  unfold out2_2
  rw [View.canon_unit_zero zeros3]
  simp only [View.ld_unit_zero (S := S1x1024x128) zeros3, View.ld_unit_zero (S := S1x2048x128) zeros3]
  obtain ⟨e0, e1, e2, e3, e4, e5, e6, e7, e8⟩ := idx_facts t
  funext j
  show k2_pay1 (F := Ideal) (iblk2 V c 0 t) (iblk2 V c 1 t) j = pairRows (V c main_v3) (V c main_v2) (((cfg2.win 2).blk t).view.emb j)
  have hi0 : ((((cfg2.win 2).blk t).view.emb j) 0).val = win2_2.index t (0 : Fin 3) * 1 + 1 * (j 0).val := rfl
  have hi1 : ((((cfg2.win 2).blk t).view.emb j) 1).val = win2_2.index t (1 : Fin 3) * 1024 + 1 * (j 1).val := rfl
  have hi2 : ((((cfg2.win 2).blk t).view.emb j) 2).val = win2_2.index t (2 : Fin 3) * 2048 + 1 * (j 2).val := rfl
  have hj0 : (j 0).val < 1 := (j 0).isLt
  refine pairBlock_eq _ _ _ _ j _ (fun r mm g rr hr hg hrr => ?_) (fun cl mm g cc hcl hg hcc => ?_)
  · show V c main_v3 (((cfg2.win 0).blk t).view.emb (ix3 (0 : Fin 1) r mm)) = V c main_v3 (ix3 g rr mm)
    refine congrArg (V c main_v3) (funext fun a => Fin.ext ?_)
    match a with
    | ⟨0, _⟩ => show win2_0.index t (0 : Fin 3) * 1 + 1 * 0 = g.val; omega
    | ⟨1, _⟩ => show win2_0.index t (1 : Fin 3) * 1024 + 1 * r.val = rr.val; omega
    | ⟨2, _⟩ => show win2_0.index t (2 : Fin 3) * 128 + 1 * mm.val = mm.val; omega
  · show V c main_v2 (((cfg2.win 1).blk t).view.emb (ix3 (0 : Fin 1) cl mm)) = V c main_v2 (ix3 g cc mm)
    refine congrArg (V c main_v2) (funext fun a => Fin.ext ?_)
    match a with
    | ⟨0, _⟩ => show win2_1.index t (0 : Fin 3) * 1 + 1 * 0 = g.val; omega
    | ⟨1, _⟩ => show win2_1.index t (1 : Fin 3) * 2048 + 1 * cl.val = cc.val; omega
    | ⟨2, _⟩ => show win2_1.index t (2 : Fin 3) * 128 + 1 * mm.val = mm.val; omega

/-- An index of the output array is in point t's block iff each coordinate is in the block's range on its axis. -/
theorem mem_blk (t : Fin cfg2.N) (i : S32x2048x2048.Idx) :
    i ∈ ((cfg2.win 2).blk t).view.set ↔ ∀ a : Fin 3, win2_2.index t a * S1x1024x2048.size a ≤ (i a).val ∧ (i a).val < win2_2.index t a * S1x1024x2048.size a + S1x1024x2048.size a := by
  show i ∈ ((View.whole main_v4).slice (win2_2.rect t)).set ↔ _
  rw [View.set_slice_whole, Rect.mem_set_unit]
  exact Iff.rfl

/-- Every index of the output array is in some writing point's block: row r of head g in the block of (g, r / 1024). -/
theorem cover (i : S32x2048x2048.Idx) :
    ∃ t : Fin cfg2.N, (cfg2.win 2).flush t = true ∧ i ∈ ((cfg2.win 2).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win2_2.index t (0 : Fin 3) = (i 0).val := congrFun ht 0
  have q1 : win2_2.index t (1 : Fin 3) = (i 1).val / 1024 := congrFun ht 1
  have q2 : win2_2.index t (2 : Fin 3) = 0 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1024 ≤ (i 1).val ∧ (i 1).val < win2_2.index t (1 : Fin 3) * 1024 + 1024; omega
  | ⟨2, _⟩ => show win2_2.index t (2 : Fin 3) * 2048 ≤ (i 2).val ∧ (i 2).val < win2_2.index t (2 : Fin 3) * 2048 + 2048; omega

/-- The output array after the launch: the pairing of the two arrays as the launch finds them. -/
theorem final (c : Dev nD) : (dat2 V c).arrAt 2 cfg2.N = pairRows (V c main_v3) (V c main_v2) :=
  (dat2 V c).arrAt_eq_of_cover 2 _ (fun t _ => flushed_eq V c t) cover

end Cert.SignProj.Pairs

end
-- ==== Proof.KHost.lean ====
/-
  The host side of the program with three regions: what the arrays hold where each region is entered and where the last
  one is left, traced back through the buffer contents at the segment boundaries.

  Before the first region two reshapes lay the query and the key out as 32 heads (head g is batch g / 16, head g % 16):
  a reshape keeps every entry's row-major position. After the last region one reshape lays the 32 heads of the result
  back out as 2 × 16. The matrix is an argument that nothing writes. Each region leaves its output array at what its
  write-backs fold to and every other buffer as it found it, so a region's entry contents at an earlier region's output
  are that earlier region's folded write-backs, and at a reshaped input they are the reshape of the launch contents.
-/
import proofs.«156569_j68032281969137_1_alg».proof.Proof.Gen.KernelIdeal.Frame
import Idealize.ShloMosaic.Lib.ValueIdx
import Idealize.ShloMosaic.Lib.Pipeline.Value
import Idealize.ShloMosaic.Lib.StableHlo.Run

noncomputable section

namespace Cert.SignProj.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

variable (m : (ℓ : Loc nD τ sig) → Buf (Elt F) ℓ) (ρ : Dev nD → PrngReg)

/-! ## Buffers the first two reshapes do not write -/

/-- No reshape before the first region writes the matrix: it holds its launch contents there. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

/-! ## Each region's entry contents at its input arrays -/

/-- Region 0 finds the reshaped key as the reshapes left it. -/
theorem V1_v1 (c : Dev nD) : V1 m ρ c main_v1 = W1 m ρ c (Proc.devRef .tc main_v1) := rfl

/-- Region 0 finds the matrix at its launch contents. -/
theorem V1_arg2 (c : Dev nD) : V1 m ρ c main_arg2 = m ((c : Thread nD τ).loc main_arg2) := W1_arg2 m ρ c

/-- Region 1 finds the reshaped query as the reshapes left it: region 0 has no window on it. -/
theorem V2_v0 (c : Dev nD) : V2 m ρ c main_v0 = W1 m ρ c (Proc.devRef .tc main_v0) :=
  W2_of_ne m ρ c main_v0 (by decide)

/-- Region 1 finds the matrix at its launch contents: region 0 only read it. -/
theorem V2_arg2 (c : Dev nD) : V2 m ρ c main_arg2 = m ((c : Thread nD τ).loc main_arg2) :=
  calc V2 m ρ c main_arg2
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := W1_arg2 m ρ c

/-- Region 2 finds region 0's output at what region 0's write-backs fold to: region 1 has no window on it. -/
theorem V3_v2 (c : Dev nD) : V3 m ρ c main_v2 = (dat0 (V1 m ρ) c).arrAt 2 cfg0.N :=
  (W3_of_ne m ρ c main_v2 (by decide)).trans (W2_arr m ρ c 2)

/-- Region 2 finds region 1's output at what region 1's write-backs fold to. -/
theorem V3_v3 (c : Dev nD) : V3 m ρ c main_v3 = (dat1 (V2 m ρ) c).arrAt 2 cfg1.N := W3_arr m ρ c 2

/-- Region 2 leaves its output at what its write-backs fold to. -/
theorem W4_v4 (c : Dev nD) : W4 m ρ c (Proc.devRef .tc main_v4) = (dat2 (V3 m ρ) c).arrAt 2 cfg2.N := W4_arr m ρ c 2

/-! ## The reshapes read at an entry -/

/-- Head g of the reshaped query is batch g / 16, head g % 16 of the query as launched: the reshape keeps the
    row-major position. -/
theorem W1_v0 (c : Dev nD) (g : Fin 32) (r : Fin 2048) (d : Fin 128) :
    W1 m ρ c (Proc.devRef .tc main_v0) (ix3 g r d)
      = m ((c : Thread nD τ).loc main_arg0)
          (ix4 (⟨g.val / 16, by have := g.isLt; omega⟩ : Fin 2) (⟨g.val % 16, by omega⟩ : Fin 16) r d) := by
  have e : (W1 m ρ c (Proc.devRef .tc main_v0) : S32x2048x128.Idx → Elt F .f32)
      = shapeCast S32x2048x128 (m ((c : Thread nD τ).loc main_arg0) : S2x16x2048x128.Idx → Elt F .f32)
          shapeCasts_S2x16x2048x128_S32x2048x128 := by
    dsimp only [W1, hostOps0]; after_results; rfl
  refine (congrFun e _).trans ?_
  refine shapeCast_apply _ _ _ _ ?_
  refine (Shape.rowMajor_val_four (d := ![2, 16, 2048, 128]) _).trans
    (Eq.trans ?_ (Shape.rowMajor_val_three (d := ![32, 2048, 128]) _).symm)
  show ((g.val / 16 * 16 + g.val % 16) * 2048 + r.val) * 128 + d.val = (g.val * 2048 + r.val) * 128 + d.val
  omega

/-- The same for the key. -/
theorem W1_v1 (c : Dev nD) (g : Fin 32) (r : Fin 2048) (d : Fin 128) :
    W1 m ρ c (Proc.devRef .tc main_v1) (ix3 g r d)
      = m ((c : Thread nD τ).loc main_arg1)
          (ix4 (⟨g.val / 16, by have := g.isLt; omega⟩ : Fin 2) (⟨g.val % 16, by omega⟩ : Fin 16) r d) := by
  have e : (W1 m ρ c (Proc.devRef .tc main_v1) : S32x2048x128.Idx → Elt F .f32)
      = shapeCast S32x2048x128 (m ((c : Thread nD τ).loc main_arg1) : S2x16x2048x128.Idx → Elt F .f32)
          shapeCasts_S2x16x2048x128_S32x2048x128 := by
    dsimp only [W1, hostOps0]; after_results; rfl
  refine (congrFun e _).trans ?_
  refine shapeCast_apply _ _ _ _ ?_
  refine (Shape.rowMajor_val_four (d := ![2, 16, 2048, 128]) _).trans
    (Eq.trans ?_ (Shape.rowMajor_val_three (d := ![32, 2048, 128]) _).symm)
  show ((g.val / 16 * 16 + g.val % 16) * 2048 + r.val) * 128 + d.val = (g.val * 2048 + r.val) * 128 + d.val
  omega

/-- Entry (b, h, i, j) of the result is entry (16 b + h, i, j) of the last region's output: the last reshape keeps the
    row-major position. -/
theorem W5_v5 (c : Dev nD) (b : Fin 2) (h : Fin 16) (i j : Fin 2048) :
    W5 m ρ c (Proc.devRef .tc main_v5) (ix4 b h i j)
      = W4 m ρ c (Proc.devRef .tc main_v4)
          (ix3 (⟨b.val * 16 + h.val, by have := b.isLt; have := h.isLt; omega⟩ : Fin 32) i j) := by
  have e : (W5 m ρ c (Proc.devRef .tc main_v5) : S2x16x2048x2048.Idx → Elt F .f32)
      = shapeCast S2x16x2048x2048 (W4 m ρ c (Proc.devRef .tc main_v4) : S32x2048x2048.Idx → Elt F .f32)
          shapeCasts_S32x2048x2048_S2x16x2048x2048 := by
    dsimp only [W5, hostOps3]; after_results; rfl
  refine (congrFun e _).trans ?_
  refine shapeCast_apply _ _ _ _ ?_
  refine (Shape.rowMajor_val_three (d := ![32, 2048, 2048]) _).trans
    (Eq.trans ?_ (Shape.rowMajor_val_four (d := ![2, 16, 2048, 2048]) _).symm)
  show ((b.val * 16 + h.val) * 2048 + i.val) * 2048 + j.val = ((b.val * 16 + h.val) * 2048 + i.val) * 2048 + j.val
  rfl

end Cert.SignProj.Host

end
-- ==== Proof.KValue.lean ====
/-
  The idealized kernel program's result, entry by entry, as a function of its three arguments.

  The program reshapes queries and keys from [2, 16, 2048, 128] to [32, 2048, 128] (head g = 16·b + h), runs the key
  launch, the query launch and the pairing launch, and reshapes the pairing's [32, 2048, 2048] output back to
  [2, 16, 2048, 2048]. Reading the result at (b, h, i, j) walks that chain backwards: the pairing's entry (g, i, j) is
  the sum over m of projected-query entry (g, i, m) times quantized-key entry (g, j, m); the former is query row
  (b, h, i) against matrix row m, the latter the sign of key row (b, h, j) against matrix row m, times the key row's
  length, times the constant. That is the sign-folded form of the estimate.
-/
import proofs.«156569_j68032281969137_1_alg».proof.Proof.KRun
import proofs.«156569_j68032281969137_1_alg».proof.Proof.KRegion0
import proofs.«156569_j68032281969137_1_alg».proof.Proof.KRegion1
import proofs.«156569_j68032281969137_1_alg».proof.Proof.KRegion2
import proofs.«156569_j68032281969137_1_alg».proof.Proof.KHost
import proofs.«156569_j68032281969137_1_alg».proof.Proof.Spec

set_option maxRecDepth 16384

noncomputable section

open scoped BigOperators

namespace Cert.SignProj.Value

open Cert.SignProj
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Head 16·b + h splits back into (b, h). -/
theorem head_div (b : Fin 2) (h : Fin 16) (hlt : (b.val * 16 + h.val) / 16 < 2) : (⟨(b.val * 16 + h.val) / 16, hlt⟩ : Fin 2) = b :=
  Fin.ext (by have := h.isLt; show (b.val * 16 + h.val) / 16 = b.val; omega)
theorem head_mod (b : Fin 2) (h : Fin 16) (hlt : (b.val * 16 + h.val) % 16 < 16) : (⟨(b.val * 16 + h.val) % 16, hlt⟩ : Fin 16) = h :=
  Fin.ext (by have := h.isLt; show (b.val * 16 + h.val) % 16 = h.val; omega)

/-- The reshaped queries at head 16·b + h, row r: the queries at (b, h, r). -/
theorem queries_head (c : Dev nD) (b : Fin 2) (h : Fin 16) (hg : b.val * 16 + h.val < 32) (r : Fin 2048) (d : Fin 128) :
    V2 m ρ c main_v0 (ix3 (⟨b.val * 16 + h.val, hg⟩ : Fin 32) r d) = m ((c : Thread nD τ).loc main_arg0) (ix4 b h r d) := by
  rw [Host.V2_v0, Host.W1_v0, head_div, head_mod]

/-- The reshaped keys at head 16·b + h, row r: the keys at (b, h, r). -/
theorem keys_head (c : Dev nD) (b : Fin 2) (h : Fin 16) (hg : b.val * 16 + h.val < 32) (r : Fin 2048) (d : Fin 128) :
    V1 m ρ c main_v1 (ix3 (⟨b.val * 16 + h.val, hg⟩ : Fin 32) r d) = m ((c : Thread nD τ).loc main_arg1) (ix4 b h r d) := by
  rw [Host.V1_v1, Host.W1_v1, head_div, head_mod]

/-- The program's result buffer at (b, h, i, j), as the run leaves it. -/
theorem result_apply (c : Dev nD) (b : Fin 2) (h : Fin 16) (i j : Fin 2048) :
    W5 m ρ c (Proc.devRef .tc main_v5) (ix4 b h i j)
      = kernelAt (m ((c : Thread nD τ).loc main_arg0)) (m ((c : Thread nD τ).loc main_arg1)) (m ((c : Thread nD τ).loc main_arg2)) b h i j := by
  have hg : b.val * 16 + h.val < 32 := by have := b.isLt; have := h.isLt; omega
  rw [Host.W5_v5, Host.W4_v4, Pairs.final]
  show Pairs.pairAt _ _ (⟨b.val * 16 + h.val, hg⟩ : Fin 32) i j = _
  unfold Pairs.pairAt kernelAt
  refine Finset.sum_congr rfl fun mm _ => ?_
  rw [Host.V3_v3, Queries.final, Host.V3_v2, Keys.final]
  show Queries.projRowAt _ _ (⟨b.val * 16 + h.val, hg⟩ : Fin 32) i mm * Keys.keyRowAt _ _ (⟨b.val * 16 + h.val, hg⟩ : Fin 32) j mm = _
  unfold Queries.projRowAt Keys.keyRowAt proj nrm
  simp only [queries_head m ρ c b h hg, keys_head m ρ c b h hg]
  rw [Host.V2_arg2 m ρ c, Host.V1_arg2 m ρ c]

/-- The run, read: every weakly fair execution terminates, nothing faulting, with the result array holding the
    sign-folded estimate of the arguments at every entry, and the arguments unchanged. -/
theorem run : θ_run defs (onTc (τ := τ) (main (F := Ideal))) ⟨m, fun _ => 0, ρ⟩ (fun r => ∀ c : Dev nD,
      r.2.mem ((c.tc : Thread nD τ).loc main_v5)
        = (fun o => kernelAt (m ((c : Thread nD τ).loc main_arg0)) (m ((c : Thread nD τ).loc main_arg1)) (m ((c : Thread nD τ).loc main_arg2)) (o 0) (o 1) (o 2) (o 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨(hr c).1.trans (funext fun o => by
      obtain ⟨b, h, i, j, rfl⟩ : ∃ (b : Fin 2) (h : Fin 16) (i j : Fin 2048), o = ix4 b h i j := ⟨o 0, o 1, o 2, o 3, eq_ix4 o⟩
      exact result_apply m ρ c b h i j), (hr c).2⟩)
    (Run.run_result m ρ)

end Cert.SignProj.Value

end
-- ==== Proof.RefRead.lean ====
/-
  The reference program read at one (query row, key row) pair.

  Its last stage multiplies three things: the sum, over the rows m of the matrix, of the query row's projection on
  row m times the kept sign of the key row's projection on row m; the scaling constant; and the Euclidean length of the
  key row (a square root of a sum of squares that starts from the f32 zero word, which is the real number zero).
  Every stage below the last is read at the index the stage above asks for; the index functions of the contractions,
  of the sum of squares and of the two broadcasts are identified with plain coordinate tuples first.
-/
import proofs.«156569_j68032281969137_1_alg».proof.Proof.Gen.ReferenceIdeal.Read
import proofs.«156569_j68032281969137_1_alg».proof.Proof.Spec

noncomputable section

open scoped BigOperators

namespace Cert.SignProj

open Idealize.ShloMosaic Idealize.ShloMosaic.ValueIdx Cert.ReferenceIdeal Cert.ReferenceIdeal.Read

/-! ## The index functions at coordinate tuples -/

/-- The outer contraction reads the query's projections at (b, h, i, m). -/
theorem lidx_v7_ix (b : Fin 2) (h : Fin 16) (i j : Fin 2048) (m : Fin 128) :
    lidx_main_v7 (ix4 b h i j) m = ix4 b h i m :=
  funext fun a => Fin.ext (by match a with | ⟨0, _⟩ => rfl | ⟨1, _⟩ => rfl | ⟨2, _⟩ => rfl | ⟨3, _⟩ => rfl)

/-- The outer contraction reads the key's signs at (b, h, j, m). -/
theorem ridx_v7_ix (b : Fin 2) (h : Fin 16) (i j : Fin 2048) (m : Fin 128) :
    ridx_main_v7 (ix4 b h i j) m = ix4 b h j m :=
  funext fun a => Fin.ext (by match a with | ⟨0, _⟩ => rfl | ⟨1, _⟩ => rfl | ⟨2, _⟩ => rfl | ⟨3, _⟩ => rfl)

/-- The query's projection on row m reads the query at (b, h, i, d). -/
theorem lidx_v6_ix (b : Fin 2) (h : Fin 16) (i : Fin 2048) (m d : Fin 128) :
    lidx_main_v6 (ix4 b h i m) d = ix4 b h i d :=
  funext fun a => Fin.ext (by match a with | ⟨0, _⟩ => rfl | ⟨1, _⟩ => rfl | ⟨2, _⟩ => rfl | ⟨3, _⟩ => rfl)

/-- The query's projection on row m reads the matrix at (m, d). -/
theorem ridx_v6_ix (b : Fin 2) (h : Fin 16) (i : Fin 2048) (m d : Fin 128) :
    ridx_main_v6 (ix4 b h i m) d = ix2 m d :=
  funext fun a => Fin.ext (by match a with | ⟨0, _⟩ => rfl | ⟨1, _⟩ => rfl)

/-- The key's projection on row m reads the key at (b, h, j, d). -/
theorem lidx_v1_ix (b : Fin 2) (h : Fin 16) (j : Fin 2048) (m d : Fin 128) :
    lidx_main_v1 (ix4 b h j m) d = ix4 b h j d :=
  funext fun a => Fin.ext (by match a with | ⟨0, _⟩ => rfl | ⟨1, _⟩ => rfl | ⟨2, _⟩ => rfl | ⟨3, _⟩ => rfl)

/-- The key's projection on row m reads the matrix at (m, d). -/
theorem ridx_v1_ix (b : Fin 2) (h : Fin 16) (j : Fin 2048) (m d : Fin 128) :
    ridx_main_v1 (ix4 b h j m) d = ix2 m d :=
  funext fun a => Fin.ext (by match a with | ⟨0, _⟩ => rfl | ⟨1, _⟩ => rfl)

/-- The second broadcast reads the length at (b, h, 0, j). -/
theorem idx_v11_ix (b : Fin 2) (h : Fin 16) (i j : Fin 2048) :
    idx_main_v11 (ix4 b h i j) = ix4 b h (0 : Fin 1) j :=
  funext fun a => Fin.ext (by match a with | ⟨0, _⟩ => rfl | ⟨1, _⟩ => rfl | ⟨2, _⟩ => rfl | ⟨3, _⟩ => rfl)

/-- The first broadcast reads the length at (b, h, j). -/
theorem idx_v10_ix (b : Fin 2) (h : Fin 16) (j : Fin 2048) :
    idx_main_v10 (ix4 b h (0 : Fin 1) j) = ix3 b h j :=
  funext fun a => Fin.ext (by match a with | ⟨0, _⟩ => rfl | ⟨1, _⟩ => rfl | ⟨2, _⟩ => rfl)

/-- The sum of squares of row (b, h, j) reads the key at (b, h, j, d). -/
theorem idx_call0_v1_ix (b : Fin 2) (h : Fin 16) (j : Fin 2048) (d : Fin 128) :
    idx_main_call0_v1 (ix3 b h j) d = ix4 b h j d :=
  funext fun a => Fin.ext (by match a with | ⟨0, _⟩ => rfl | ⟨1, _⟩ => rfl | ⟨2, _⟩ => rfl | ⟨3, _⟩ => rfl)

/-! ## The stages below the last, each at a coordinate tuple -/

/-- The query's projection stage is `proj q S`. -/
theorem v6_read (q : (⟨S2x16x2048x128, .f32⟩ : BufTy).Contents (Elt Ideal))
    (S : (⟨S128x128, .f32⟩ : BufTy).Contents (Elt Ideal)) (b : Fin 2) (h : Fin 16) (i : Fin 2048) (m : Fin 128) :
    val_main_v6 (F := Ideal) q S (ix4 b h i m) = proj q S b h i m := by
  rw [val_main_v6_apply]
  unfold proj
  refine Finset.sum_congr rfl fun d _ => ?_
  rw [lidx_v6_ix, ridx_v6_ix]

/-- The key's projection stage is `proj k S`. -/
theorem v1_read (k : (⟨S2x16x2048x128, .f32⟩ : BufTy).Contents (Elt Ideal))
    (S : (⟨S128x128, .f32⟩ : BufTy).Contents (Elt Ideal)) (b : Fin 2) (h : Fin 16) (j : Fin 2048) (m : Fin 128) :
    val_main_v1 (F := Ideal) k S (ix4 b h j m) = proj k S b h j m := by
  rw [val_main_v1_apply]
  unfold proj
  refine Finset.sum_congr rfl fun d _ => ?_
  rw [lidx_v1_ix, ridx_v1_ix]

/-- The sign stage is the kept sign of the key's projection. -/
theorem v5_read (k : (⟨S2x16x2048x128, .f32⟩ : BufTy).Contents (Elt Ideal))
    (S : (⟨S128x128, .f32⟩ : BufTy).Contents (Elt Ideal)) (b : Fin 2) (h : Fin 16) (j : Fin 2048) (m : Fin 128) :
    val_main_v5 (F := Ideal) k S (ix4 b h j m) = sgn (proj k S b h j m) := by
  rw [val_main_v5_apply, val_main_v4_apply, val_main_v3_apply, v1_read, val_main_v2_apply, val_main_cst_apply,
    val_main_call1_v0_apply, val_main_cst_0_apply, val_main_call1_v1_apply, val_main_cst_1_apply]
  rfl

/-- The length stage is the Euclidean length of the key row: the sum of squares starts from the f32 zero word, which
    is zero. -/
theorem v0_read (k : (⟨S2x16x2048x128, .f32⟩ : BufTy).Contents (Elt Ideal)) (b : Fin 2) (h : Fin 16) (j : Fin 2048) :
    val_main_v0 (F := Ideal) k (ix3 b h j) = nrm k b h j := by
  rw [val_main_v0_apply, val_main_call0_v1_apply, val_main_call0_cst_apply]
  unfold nrm
  rw [Ideal.hostUnary_sqrt_def, Ideal.ofBits_def, Ideal.ofBits_zero_f32, zero_add]
  refine congrArg Ideal.sqrt (Finset.sum_congr rfl fun d _ => ?_)
  rw [val_main_call0_v0_apply, idx_call0_v1_ix, Ideal.mulf_def]

/-! ## The last stage -/

/-- The reference's result at (b, h, i, j): the sum over the rows of the matrix of projection times sign, then the
    constant, then the key row's length. -/
theorem ref_read (q k : (⟨Cert.ReferenceIdeal.S2x16x2048x128, .f32⟩ : BufTy).Contents (Elt Ideal))
    (S : (⟨Cert.ReferenceIdeal.S128x128, .f32⟩ : BufTy).Contents (Elt Ideal))
    (b : Fin 2) (h : Fin 16) (i j : Fin 2048) :
    Cert.ReferenceIdeal.Read.val_main_v12 (F := Ideal) q k S (ix4 b h i j) = refAt q k S b h i j := by
  rw [val_main_v12_apply, val_main_v9_apply, val_main_v7_apply, val_main_v8_apply, val_main_cst_2_apply,
    val_main_v11_apply, idx_v11_ix, val_main_v10_apply, idx_v10_ix, v0_read]
  unfold refAt scale
  rw [Ideal.mulf_def, Ideal.mulf_def, Ideal.ofBits_def]
  refine congrArg (fun x => x * Ideal.ofBits .f32 0x3C206C99#32 * nrm k b h j) (Finset.sum_congr rfl fun m _ => ?_)
  rw [lidx_v7_ix, ridx_v7_ix, v6_read, v5_read]

end Cert.SignProj

end
-- ==== Proof.Algebra.lean ====
/-
  The sign-quantized projection estimate: folding the key's length and the scaling constant into the signs before
  the sum over the matrix rows gives the same extended real as summing first and scaling afterwards, provided every
  entry of the three arrays is a real number.

  The argument: with real entries every projection is a real (a finite sum of products of reals), each kept sign is
  one of two fixed reals, the key's length is the square root of a nonnegative real, and the constant is a real. So
  both sides are coercions of real expressions, and on the reals the identity
      ∑ m, a m * (s m * n * c) = (∑ m, a m * s m) * c * n
  is the distributive law. (On the extended reals the same identity fails at the infinities, which is why the
  entries are required to be real.)
-/
import proofs.«156569_j68032281969137_1_alg».proof.Proof.Spec
import Mathlib.Tactic.Ring

noncomputable section

open scoped BigOperators

namespace Cert.SignProj

open Idealize.ShloMosaic Idealize.ShloMosaic.ValueIdx

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The distributive law on the reals: scaling every term of a sum by `n * c` is scaling the sum by `c` and `n`. -/
theorem fold_scale {ι : Type} (t : Finset ι) (a s : ι → ℝ) (n c : ℝ) :
    ∑ m ∈ t, a m * (s m * n * c) = (∑ m ∈ t, a m * s m) * c * n := by
  rw [Finset.sum_mul, Finset.sum_mul]
  refine Finset.sum_congr rfl fun m _ => ?_
  ring

/-- A pattern whose exponent field is not all ones denotes a real number (a zero, a subnormal or a normal):
    only the all-ones exponent gives an infinity or the junk value. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The f32 word of 1.0 denotes a real (its exponent field is 127). -/
theorem one_word_real : ∃ r : ℝ, Ideal.ofBits .f32 0x3F800000#32 = (r : EReal) :=
  ieee_real 8 23 (0x3F800000#32 : BitVec 32) (by decide)

/-- The f32 word of -1.0 denotes a real (its exponent field is 127). -/
theorem neg_one_word_real : ∃ r : ℝ, Ideal.ofBits .f32 0xBF800000#32 = (r : EReal) :=
  ieee_real 8 23 (0xBF800000#32 : BitVec 32) (by decide)

/-- The scaling constant is a real (its exponent field is 120); its value is never needed. -/
theorem scale_real : ∃ r : ℝ, scale = (r : EReal) :=
  ieee_real 8 23 (0x3C206C99#32 : BitVec 32) (by decide)

/-- The kept sign is a real whatever the projection is: it is one of the two words above. -/
theorem sgn_real (p : EReal) : ∃ r : ℝ, sgn p = (r : EReal) := by
  unfold sgn Scalar.select
  split_ifs
  · exact one_word_real
  · exact neg_one_word_real

/-- A projection of real rows is the coercion of the real sum of products. -/
theorem proj_real (x : Rows.Idx → ℝ) (S : Mat.Idx → ℝ) (b : Fin 2) (h : Fin 16) (i : Fin 2048) (m : Fin 128) :
    proj (fun a => (x a : EReal)) (fun a => (S a : EReal)) b h i m
      = ((∑ d : Fin 128, x (ix4 b h i d) * S (ix2 m d) : ℝ) : EReal) := by
  unfold proj
  rw [coe_sum]
  refine Finset.sum_congr rfl fun d _ => ?_
  rw [EReal.coe_mul]

/-- The length of a real row is a real: the sum of squares is a nonnegative real, so its square root is the
    coercion of the real square root. -/
theorem nrm_real (k : Rows.Idx → ℝ) (b : Fin 2) (h : Fin 16) (j : Fin 2048) :
    ∃ r : ℝ, nrm (fun a => (k a : EReal)) b h j = (r : EReal) := by
  refine ⟨Real.sqrt (∑ d : Fin 128, k (ix4 b h j d) * k (ix4 b h j d)), ?_⟩
  unfold nrm
  have hsum : (∑ d : Fin 128, (k (ix4 b h j d) : EReal) * (k (ix4 b h j d) : EReal))
      = ((∑ d : Fin 128, k (ix4 b h j d) * k (ix4 b h j d) : ℝ) : EReal) := by
    rw [coe_sum]
    refine Finset.sum_congr rfl fun d _ => ?_
    rw [EReal.coe_mul]
  rw [hsum, Ideal.sqrt_coe, if_neg]
  exact not_lt.mpr (Finset.sum_nonneg fun d _ => mul_self_nonneg _)

/-- With every entry of the three arrays a real, the two orders of scaling agree at every pair of rows. -/
theorem kernelAt_eq_refAt (q k : Rows.Idx → EReal) (S : Mat.Idx → EReal)
    (hq : ∀ x, ∃ r : ℝ, q x = (r : EReal)) (hk : ∀ x, ∃ r : ℝ, k x = (r : EReal))
    (hS : ∀ x, ∃ r : ℝ, S x = (r : EReal))
    (b : Fin 2) (h : Fin 16) (i j : Fin 2048) : kernelAt q k S b h i j = refAt q k S b h i j := by
  -- real witnesses for the three arrays
  choose qr hqr using hq
  choose kr hkr using hk
  choose Sr hSr using hS
  obtain rfl : q = fun a => (qr a : EReal) := funext hqr
  obtain rfl : k = fun a => (kr a : EReal) := funext hkr
  obtain rfl : S = fun a => (Sr a : EReal) := funext hSr
  -- real witnesses for the signs, the length and the constant
  choose s hs using fun m : Fin 128 => sgn_real (proj (fun a => (kr a : EReal)) (fun a => (Sr a : EReal)) b h j m)
  obtain ⟨n, hn⟩ := nrm_real kr b h j
  obtain ⟨c, hc⟩ := scale_real
  -- both sides are coercions of real expressions; the real identity is the distributive law
  unfold kernelAt refAt
  simp only [hs, hn, hc, proj_real qr Sr]
  simp only [← EReal.coe_mul, ← coe_sum]
  exact congrArg _ (fold_scale _ _ _ _ _)

end Cert.SignProj

end
-- ==== Proof.Finite.lean ====
/-
  The precondition on the three arrays, read back: it compares the absolute value of every entry with the f32 word
  of plus infinity (strictly below), takes the conjunction over all entries of each array, and joins the three
  results. If it comes out true, every entry of every array is a real number: an extended real whose absolute value
  is strictly below the top element is neither of the two infinities.
-/
import proofs.«156569_j68032281969137_1_alg».proof.Pre_finite_inputs
import proofs.«156569_j68032281969137_1_alg».proof.Proof.Gen.Pre_finite_inputs
import Idealize.ShloMosaic.Lib.ReduceAll
import Idealize.ShloMosaic.PureOps.Ideal
import Idealize.ShloMosaic.Lib.ValueIdx

noncomputable section

namespace Cert.SignProj

open Idealize.ShloMosaic Idealize.ShloMosaic.ValueIdx

/-- The rank-0 shape has exactly one index. -/
instance : Subsingleton Cert.Pre_finite_inputs.S_.Idx := ⟨fun a b => funext fun d => d.elim0⟩

/-- The f32 word with all-ones exponent, zero significand and clear sign bit denotes the top element. -/
theorem inf_word : Ideal.ofBits .f32 0x7F800000#32 = (⊤ : EReal) := by
  simp [Ideal.ofBits, Ideal.ieee]

/-- The ordered "less than" comparison coming out true says the first operand is strictly below the second. -/
theorem lt_of_cmp_olt (a b : EReal) (h : Ideal.cmp .olt a b = 1#1) : a < b := by
  unfold Ideal.cmp at h
  by_contra hn
  simp [hn] at h

/-- An extended real whose absolute value `max x (-x)` is strictly below the top element is a real: at the bottom
    element the negation is the top element, and at the top element the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- If the precondition is true, every entry of the three arrays is a real. The result has one index; there the
    outer conjunctions split into the three reductions, each reduction by conjunction over all axes gives the
    comparison at every entry, and the comparison is `|x| < ⊤`. -/
theorem real_of_pre [Cert.Pre_finite_inputs.Facts]
    (q k : FVec Ideal Cert.Pre_finite_inputs.S2x16x2048x128 .f32) (S : FVec Ideal Cert.Pre_finite_inputs.S128x128 .f32)
    (hpre : Cert.Pre_finite_inputs.fn (F := Ideal) q k S = (fun _ => 1#1)) :
    (∀ x, ∃ r : ℝ, q x = (r : EReal)) ∧ (∀ x, ∃ r : ℝ, k x = (r : EReal)) ∧ (∀ x, ∃ r : ℝ, S x = (r : EReal)) := by
  have e := congrFun hpre ValueIdx.ix0
  dsimp only [Cert.Pre_finite_inputs.fn] at e
  -- the two outer conjunctions, at the one index of the result
  change IntOp.andi (IntOp.andi _ _) _ = 1#1 at e
  rw [IntOp.andi_eq_one, IntOp.andi_eq_one] at e
  obtain ⟨⟨e1, e2⟩, e3⟩ := e
  refine ⟨fun x => ?_, fun x => ?_, fun x => ?_⟩
  · have hx := Host.reduce_andi_all _ _ _ _ _ e1 x
    change Ideal.cmp .olt (max (q x) (-(q x))) (Ideal.ofBits .f32 0x7F800000#32) = 1#1 at hx
    exact real_of_abs_lt_top _ (inf_word ▸ lt_of_cmp_olt _ _ hx)
  · have hx := Host.reduce_andi_all _ _ _ _ _ e2 x
    change Ideal.cmp .olt (max (k x) (-(k x))) (Ideal.ofBits .f32 0x7F800000#32) = 1#1 at hx
    exact real_of_abs_lt_top _ (inf_word ▸ lt_of_cmp_olt _ _ hx)
  · have hx := Host.reduce_andi_all _ _ _ _ _ e3 x
    change Ideal.cmp .olt (max (S x) (-(S x))) (Ideal.ofBits .f32 0x7F800000#32) = 1#1 at hx
    exact real_of_abs_lt_top _ (inf_word ▸ lt_of_cmp_olt _ _ hx)

end Cert.SignProj

end
-- ==== Proof.lean ====
/-
  The certificate's five claims.

  The three frames: the two kernel programs' runs are the generated chains of segments; the reference program is a
  straight line of host operations, so its frame is its run with the result forgotten. The idealization rewrote
  nothing, so there is nothing to preserve beyond the program text itself.

  The equivalence on the extended reals: the kernel program ends with the sign-folded estimate at every entry of its
  result — length and constant multiplied into each sign before the sum over the matrix rows — and the reference
  program ends with the sum taken first and scaled afterwards. The precondition says every entry of the three
  arrays is finite, so every intermediate quantity is a real number, and on the reals the two forms are one by the
  distributive law.
-/
import proofs.«156569_j68032281969137_1_alg».proof.Defs
import proofs.«156569_j68032281969137_1_alg».proof.Proof.Gen.Kernel
import proofs.«156569_j68032281969137_1_alg».proof.Proof.Gen.Kernel.Skeleton
import proofs.«156569_j68032281969137_1_alg».proof.Proof.Gen.Kernel.Launch
import proofs.«156569_j68032281969137_1_alg».proof.Proof.Gen.Kernel.Points
import proofs.«156569_j68032281969137_1_alg».proof.Proof.Gen.Kernel.Frame
import proofs.«156569_j68032281969137_1_alg».proof.Proof.Gen.KernelIdeal
import proofs.«156569_j68032281969137_1_alg».proof.Proof.Gen.KernelIdeal.Skeleton
import proofs.«156569_j68032281969137_1_alg».proof.Proof.Gen.KernelIdeal.Launch
import proofs.«156569_j68032281969137_1_alg».proof.Proof.Gen.KernelIdeal.Points
import proofs.«156569_j68032281969137_1_alg».proof.Proof.Gen.KernelIdeal.Frame
import proofs.«156569_j68032281969137_1_alg».proof.Proof.Gen.ReferenceIdeal
import proofs.«156569_j68032281969137_1_alg».proof.Proof.Gen.Pre_finite_inputs
import proofs.«156569_j68032281969137_1_alg».proof.Proof.Gen.ReferenceIdeal.Run
import proofs.«156569_j68032281969137_1_alg».proof.Proof.Gen.ReferenceIdeal.Read
import proofs.«156569_j68032281969137_1_alg».proof.Proof.KValue
import proofs.«156569_j68032281969137_1_alg».proof.Proof.RefRead
import proofs.«156569_j68032281969137_1_alg».proof.Proof.Algebra
import proofs.«156569_j68032281969137_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the scaled-afterwards estimate of the kernel program's arguments: the kernel program by its
    sign-folded value and the distributive law on the reals the precondition grants, the reference program by its
    stages read at an entry, its arguments being the kernel program's. -/
theorem algebraic : Cert.algebraic_KernelIdeal_ReferenceIdeal := by
  intro m ρ m' ρ' hpre hagree
  refine ⟨fun c => fun o => Cert.SignProj.refAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (o 0) (o 1) (o 2) (o 3), ?_, ?_⟩
  · refine (θ_run Cert.KernelIdeal.defs _ _).mono (fun r hr c => ⟨(hr c).1.trans (funext fun o => ?_), (hr c).2⟩)
      (Cert.SignProj.Value.run m ρ)
    obtain ⟨hq, hk, hS⟩ := Cert.SignProj.real_of_pre _ _ _ (hpre c)
    exact Cert.SignProj.kernelAt_eq_refAt _ _ _ hq hk hS (o 0) (o 1) (o 2) (o 3)
  · refine (θ_run Cert.ReferenceIdeal.defs _ _).mono (fun r hr c => ⟨(hr c).1.trans ?_, (hr c).2⟩)
      (Cert.ReferenceIdeal.Value.run (F := Ideal) m' ρ')
    rw [Cert.ReferenceIdeal.Read.val_main_v12_eq, (hagree c).1, (hagree c).2.1, (hagree c).2.2]
    funext o
    obtain ⟨b, h, i, j, rfl⟩ : ∃ (b : Fin 2) (h : Fin 16) (i j : Fin 2048), o = ix4 b h i j := ⟨o 0, o 1, o 2, o 3, eq_ix4 o⟩
    exact Cert.SignProj.ref_read _ _ _ b h i j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
